-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x512 : Shape := ⟨3, ![8, 16384, 512]⟩
abbrev S8x512 : Shape := ⟨2, ![8, 512]⟩
abbrev S512x512 : Shape := ⟨2, ![512, 512]⟩
abbrev S512 : Shape := ⟨1, ![512]⟩
abbrev S_ : Shape := ⟨0, ![]⟩

class Facts : Prop where
  bcast_S_S8x16384x512 : S_.BroadcastsInDim S8x16384x512 (![] : Fin 0 → Fin S8x16384x512.rank)
  reducesTo_S8x16384x512_S_d0_1_2 : S8x16384x512.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x16384x512 .f32) (main_arg1 : FVec F S8x512 .f32) (main_arg2 : FVec F S512x512 .f32) (main_arg3 : FVec F S512x512 .f32) (main_arg4 : FVec F S512 .f32) (main_arg5 : FVec F S512 .f32) : IVec S_ 1 :=
  let main_v0 : FVec F S8x16384x512 .f32 := Host.absf main_arg0
  let main_cst : FVec F S_ .f32 := constant S_ .f32 0x7F800000#32
  let main_v1 : FVec F S8x16384x512 .f32 := broadcastInDim S8x16384x512 ![] bcast_S_S8x16384x512 main_cst
  let main_v2 : IVec S8x16384x512 1 := cmpf .olt main_v0 main_v1
  let main_c : IVec S_ 1 := constantI S_ 1 1#1
  let main_v3 : IVec S_ 1 := (fun x v => Host.reduce IntOp.andi x v reducesTo_S8x16384x512_S_d0_1_2 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S8x16384x512 : Shape := ⟨3, ![8, 16384, 512]⟩
abbrev S8x512 : Shape := ⟨2, ![8, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S8x1x512 : Shape := ⟨3, ![8, 1, 512]⟩
abbrev S1x2048x512 : Shape := ⟨3, ![1, 2048, 512]⟩
abbrev S1x1x512 : Shape := ⟨3, ![1, 1, 512]⟩
abbrev S2048x512 : Shape := ⟨2, ![2048, 512]⟩

abbrev nBuf : Space → Nat
  | .hbm => 26
  | .vmem => 8
  | .smem => 0
  | _ => 0

abbrev bufTy : (tb : Table) → Fin (tcTables nBuf tb) → BufTy
  | .hbm, ⟨0, _⟩ => ⟨S8x16384x512, .f32⟩
  | .hbm, ⟨1, _⟩ => ⟨S8x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S8x512, .f32⟩
  | .hbm, ⟨7, _⟩ => ⟨S_, .f32⟩
  | .hbm, ⟨8, _⟩ => ⟨S8x512, .f32⟩
  | .hbm, ⟨9, _⟩ => ⟨S8x512, .f32⟩
  | .hbm, ⟨10, _⟩ => ⟨S1x512, .f32⟩
  | .hbm, ⟨11, _⟩ => ⟨S8x512, .f32⟩
  | .hbm, ⟨12, _⟩ => ⟨S8x512, .f32⟩
  | .hbm, ⟨13, _⟩ => ⟨S512x512, .f32⟩
  | .hbm, ⟨14, _⟩ => ⟨S8x512, .f32⟩
  | .hbm, ⟨15, _⟩ => ⟨S8x512, .f32⟩
  | .hbm, ⟨16, _⟩ => ⟨S_, .f32⟩
  | .hbm, ⟨17, _⟩ => ⟨S8x512, .f32⟩
  | .hbm, ⟨18, _⟩ => ⟨S8x512, .f32⟩
  | .hbm, ⟨19, _⟩ => ⟨S8x512, .f32⟩
  | .hbm, ⟨20, _⟩ => ⟨S512x512, .f32⟩
  | .hbm, ⟨21, _⟩ => ⟨S512x512, .bf16⟩
  | .hbm, ⟨22, _⟩ => ⟨S8x1x512, .f32⟩
  | .hbm, ⟨23, _⟩ => ⟨S8x1x512, .f32⟩
  | .hbm, ⟨24, _⟩ => ⟨S1x512, .f32⟩
  | .hbm, ⟨25, _⟩ => ⟨S8x16384x512, .f32⟩
  | .local _ .vmem, ⟨0, _⟩ => ⟨S1x2048x512, .f32⟩
  | .local _ .vmem, ⟨1, _⟩ => ⟨S1x2048x512, .f32⟩
  | .local _ .vmem, ⟨2, _⟩ => ⟨S8x1x512, .f32⟩
  | .local _ .vmem, ⟨3, _⟩ => ⟨S8x1x512, .f32⟩
  | .local _ .vmem, ⟨4, _⟩ => ⟨S512x512, .bf16⟩
  | .local _ .vmem, ⟨5, _⟩ => ⟨S1x512, .f32⟩
  | .local _ .vmem, ⟨6, _⟩ => ⟨S1x2048x512, .f32⟩
  | .local _ .vmem, ⟨7, _⟩ => ⟨S1x2048x512, .f32⟩
  | _, _ => ⟨S8x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let arg0 : BitVec 32 := BitVec.ofNat 32 (i 0).val
  let v0 : Index := Scalar.indexCast arg0
  let c0 : Index := 0#32
  let c0_0 : Index := 0#32
  ![v0.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8x512 : S_.BroadcastsInDim S8x512 (![] : Fin 0 → Fin S8x512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  transposes_S512x512_S512x512_1_0 : S512x512.Transposes [1, 0] S512x512
  bitsLt_bf16_f32 : FTy.bits .bf16 < FTy.bits .f32
  shapeCasts_S8x512_S8x1x512 : S8x512.ShapeCasts S8x1x512
  shapeCasts_S512_S1x512 : S512.ShapeCasts S1x512
  h_S1x1x512 : 0 < S1x1x512.numel
  shapeCasts_S1x1x512_S512 : S1x1x512.ShapeCasts S512
  inb_S1x512_S1x512_0_0 : ∀ a, (![0, 0] : Fin 2 → Nat) a + S1x512.size a ≤ S1x512.size a
  h_S1x512 : 0 < S1x512.numel
  shapeCasts_S1x512_S512 : S1x512.ShapeCasts S512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  broadcasts_S1x512_S2048x512 : S1x512.Broadcasts S2048x512
  shapeCasts_S2048x512_S1x2048x512 : S2048x512.ShapeCasts S1x2048x512
  dot_S8x512_S512x512_S8x512_1_1_0_0_n_n_wf : DotDims.WF S8x512 S512x512 S8x512 [1] [1] [0] [0] [] []
  dot_S2048x512_S512x512_S2048x512_1_0_0_1_n_n_wf : DotDims.WF S2048x512 S512x512 S2048x512 [1] [0] [0] [1] [] []
  hrank0 : 0 < grid0.rank
  k0_off1_inb : ∀ i : grid0.Coords, ∀ a, (k0_off1 i) a + S1x1x512.size a ≤ S8x1x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x16384x512.size a
  hwx0_0 : ∀ i : grid0.Coords, EltTy.bits .f32 = 32 ∨ (Rect.block (s := S8x16384x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1x512.size a ≤ S8x1x512.size a
  hwx0_1 : ∀ i : grid0.Coords, EltTy.bits .f32 = 32 ∨ (Rect.block (s := S8x1x512) S8x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1x512.size a ≤ S8x1x512.size a
  hwx0_2 : ∀ i : grid0.Coords, EltTy.bits .f32 = 32 ∨ (Rect.block (s := S8x1x512) S8x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x512.size a ≤ S8x16384x512.size a
  hwx0_5 : ∀ i : grid0.Coords, EltTy.bits .f32 = 32 ∨ (Rect.block (s := S8x16384x512) S1x2048x512.size (cc0_transform_5 i) (hinb0_5 i)).WholeWords (EltTy.packing .f32)

variable [Facts₀]

def dot_S8x512_S512x512_S8x512_1_1_0_0_n_n : DotDims S8x512 S512x512 S8x512 where
  lhsContracting := [1]
  rhsContracting := [1]
  lhsNonContracting := [0]
  rhsNonContracting := [0]
  lhsBatch := []
  rhsBatch := []
  wf := dot_S8x512_S512x512_S8x512_1_1_0_0_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8x1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S8x1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16384x512 : Shape := ⟨3, ![8, 16384, 512]⟩
abbrev S8x512 : Shape := ⟨2, ![8, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S8x1x512 : Shape := ⟨3, ![8, 1, 512]⟩
abbrev S1x1x512 : Shape := ⟨3, ![1, 1, 512]⟩

abbrev nBuf : Space → Nat
  | .hbm => 48
  | .vmem => 0
  | .smem => 0
  | _ => 0

abbrev bufTy : (tb : Table) → Fin (tcTables nBuf tb) → BufTy
  | .hbm, ⟨0, _⟩ => ⟨S8x16384x512, .f32⟩
  | .hbm, ⟨1, _⟩ => ⟨S8x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S8x512, .f32⟩
  | .hbm, ⟨7, _⟩ => ⟨S_, .f32⟩
  | .hbm, ⟨8, _⟩ => ⟨S8x512, .f32⟩
  | .hbm, ⟨9, _⟩ => ⟨S8x512, .f32⟩
  | .hbm, ⟨10, _⟩ => ⟨S1x512, .f32⟩
  | .hbm, ⟨11, _⟩ => ⟨S8x512, .f32⟩
  | .hbm, ⟨12, _⟩ => ⟨S8x512, .f32⟩
  | .hbm, ⟨13, _⟩ => ⟨S512x512, .f32⟩
  | .hbm, ⟨14, _⟩ => ⟨S8x512, .f32⟩
  | .hbm, ⟨15, _⟩ => ⟨S8x512, .f32⟩
  | .hbm, ⟨16, _⟩ => ⟨S_, .f32⟩
  | .hbm, ⟨17, _⟩ => ⟨S8x512, .f32⟩
  | .hbm, ⟨18, _⟩ => ⟨S8x512, .f32⟩
  | .hbm, ⟨19, _⟩ => ⟨S8x512, .f32⟩
  | .hbm, ⟨20, _⟩ => ⟨S8x1x512, .f32⟩
  | .hbm, ⟨21, _⟩ => ⟨S8x16384x512, .f32⟩
  | .hbm, ⟨22, _⟩ => ⟨S8x16384x512, .f32⟩
  | .hbm, ⟨23, _⟩ => ⟨S8x16384x512, .f32⟩
  | .hbm, ⟨24, _⟩ => ⟨S8x1x512, .f32⟩
  | .hbm, ⟨25, _⟩ => ⟨S8x16384x512, .f32⟩
  | .hbm, ⟨26, _⟩ => ⟨S8x16384x512, .f32⟩
  | .hbm, ⟨27, _⟩ => ⟨S1x1x512, .f32⟩
  | .hbm, ⟨28, _⟩ => ⟨S8x16384x512, .f32⟩
  | .hbm, ⟨29, _⟩ => ⟨S8x16384x512, .f32⟩
  | .hbm, ⟨30, _⟩ => ⟨S_, .f32⟩
  | .hbm, ⟨31, _⟩ => ⟨S8x16384x512, .f32⟩
  | .hbm, ⟨32, _⟩ => ⟨S8x16384x512, .i1⟩
  | .hbm, ⟨33, _⟩ => ⟨S_, .f32⟩
  | .hbm, ⟨34, _⟩ => ⟨S8x16384x512, .f32⟩
  | .hbm, ⟨35, _⟩ => ⟨S8x16384x512, .f32⟩
  | .hbm, ⟨36, _⟩ => ⟨S8x16384x512, .f32⟩
  | .hbm, ⟨37, _⟩ => ⟨S_, .f32⟩
  | .hbm, ⟨38, _⟩ => ⟨S8x16384x512, .f32⟩
  | .hbm, ⟨39, _⟩ => ⟨S8x16384x512, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8x16384x512, .f32⟩
  | .hbm, ⟨44, _⟩ => ⟨S8x16384x512, .f32⟩
  | .hbm, ⟨45, _⟩ => ⟨S_, .f32⟩
  | .hbm, ⟨46, _⟩ => ⟨S8x16384x512, .f32⟩
  | .hbm, ⟨47, _⟩ => ⟨S8x16384x512, .f32⟩
  | _, _ => ⟨S8x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  bcast_S_S8x512 : S_.BroadcastsInDim S8x512 (![] : Fin 0 → Fin S8x512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S8x512_S8x1x512_0_2 : S8x512.BroadcastsInDim S8x1x512 (![0, 2] : Fin 2 → Fin S8x1x512.rank)
  bcast_S8x1x512_S8x16384x512_0_1_2 : S8x1x512.BroadcastsInDim S8x16384x512 (![0, 1, 2] : Fin 3 → Fin S8x16384x512.rank)
  bcast_S512_S1x1x512_2 : S512.BroadcastsInDim S1x1x512 (![2] : Fin 1 → Fin S1x1x512.rank)
  bcast_S1x1x512_S8x16384x512_0_1_2 : S1x1x512.BroadcastsInDim S8x16384x512 (![0, 1, 2] : Fin 3 → Fin S8x16384x512.rank)
  bcast_S_S8x16384x512 : S_.BroadcastsInDim S8x16384x512 (![] : Fin 0 → Fin S8x16384x512.rank)
  dot_S8x512_S512x512_S8x512_1_1_0_0_n_n_wf : DotDims.WF S8x512 S512x512 S8x512 [1] [1] [0] [0] [] []
  dot_S8x16384x512_S512x512_S8x16384x512_2_1_01_0_n_n_wf : DotDims.WF S8x16384x512 S512x512 S8x16384x512 [2] [1] [0, 1] [0] [] []

variable [Facts₀]

def dot_S8x512_S512x512_S8x512_1_1_0_0_n_n : DotDims S8x512 S512x512 S8x512 where
  lhsContracting := [1]
  rhsContracting := [1]
  lhsNonContracting := [0]
  rhsNonContracting := [0]
  lhsBatch := []
  rhsBatch := []
  wf := dot_S8x512_S512x512_S8x512_1_1_0_0_n_n_wf
def dot_S8x16384x512_S512x512_S8x16384x512_2_1_01_0_n_n : DotDims S8x16384x512 S512x512 S8x16384x512 where
  lhsContracting := [2]
  rhsContracting := [1]
  lhsNonContracting := [0, 1]
  rhsNonContracting := [0]
  lhsBatch := []
  rhsBatch := []
  wf := dot_S8x16384x512_S512x512_S8x16384x512_2_1_01_0_n_n_wf

class Facts : Prop extends Facts₀ where

variable [Facts]
-- ==== Proof.Spec.lean ====
/-
  The function both programs compute, entry by entry, on the extended reals.

  For sample n, row l and output channel o the result is

      act ( (∑ k, (x[n,l,k] · s[n,k]) · W[o,k]) · d[n,o] + b[o] )

  where s (the per-sample modulation, one row per sample) and d (the per-sample, per-channel
  demodulation factor) are two 8 × 512 tables, W is the 512 × 512 weight and b the bias, and

      act y = min 256 (max (-256) ((if y ≥ 0 then y else 0.2 · y) · √2))

  with 0.2, √2, ±256 and 0 the f32 words both programs carry (never evaluated: the same word denotes the
  same extended real on both sides). Nothing here needs an input to be finite: only the order of the
  summation's index set is re-read, never a distributive law.
-/
import Idealize.ShloMosaic.PureOps.Ideal
import Idealize.ShloMosaic.Lib.ValueIdx

noncomputable section

namespace Cert.Modulated

open Idealize.ShloMosaic Idealize.ShloMosaic.ValueIdx

/-- The activation: leaky slope on the negative side, the gain, then the clamp to [-256, 256]. -/
def act (y : EReal) : EReal :=
  min (Ideal.ofBits .f32 0x43800000#32)
    (max (Ideal.ofBits .f32 0xC3800000#32)
      (Scalar.select (Ideal.cmp .oge y (Ideal.ofBits .f32 0x00000000#32)) y (Ideal.ofBits .f32 0x3E4CCCCD#32 * y)
        * Ideal.ofBits .f32 0x3FB504F3#32))

/-- The value before the activation at (n, l, o): the row of x scaled entry by entry by the sample's
    modulation row, contracted with row o of the weight, times the demodulation factor, plus the bias. -/
def pre (x : (⟨3, ![8, 16384, 512]⟩ : Shape).Idx → EReal) (s d : (⟨2, ![8, 512]⟩ : Shape).Idx → EReal)
    (W : (⟨2, ![512, 512]⟩ : Shape).Idx → EReal) (b : (⟨1, ![512]⟩ : Shape).Idx → EReal)
    (n : Fin 8) (l : Fin 16384) (o : Fin 512) : EReal :=
  (∑ k : Fin 512, x (ix3 n l k) * s (ix2 n k) * W (ix2 o k)) * d (ix2 n o) + b (ix1 o)

/-- The whole result array as one function of x, the two tables, the weight and the bias. -/
def G (x : (⟨3, ![8, 16384, 512]⟩ : Shape).Idx → EReal) (s d : (⟨2, ![8, 512]⟩ : Shape).Idx → EReal)
    (W : (⟨2, ![512, 512]⟩ : Shape).Idx → EReal) (b : (⟨1, ![512]⟩ : Shape).Idx → EReal) :
    (⟨3, ![8, 16384, 512]⟩ : Shape).Idx → EReal :=
  fun i => act (pre x s d W b (i 0) (i 1) (i 2))

theorem G_apply (x : (⟨3, ![8, 16384, 512]⟩ : Shape).Idx → EReal) (s d : (⟨2, ![8, 512]⟩ : Shape).Idx → EReal)
    (W : (⟨2, ![512, 512]⟩ : Shape).Idx → EReal) (b : (⟨1, ![512]⟩ : Shape).Idx → EReal)
    (n : Fin 8) (l : Fin 16384) (o : Fin 512) :
    G x s d W b (ix3 n l o) = act (pre x s d W b n l o) := rfl

end Cert.Modulated

end
-- ==== Proof.Layout.lean ====
/-
  Two changes of shape read at an index, for any extents: a row vector kept as a [1, 1, c] block and
  flattened to [c], and a table [a, c] given a unit middle axis, [a, 1, c]. Both keep the row-major
  position of every entry, which is all a shape cast preserves.
-/
import Idealize.ShloMosaic.Lib.ValueLayout

namespace Cert.Modulated.Layout

open Idealize.ShloMosaic Idealize.ShloMosaic.ValueIdx

variable {α : Type}

/-- A [1, 1, c] array cast to [c] reads, at k, the operand at (0, 0, k). -/
theorem shapeCast_11c_c_apply {c : ℕ} (x : (⟨3, ![1, 1, c]⟩ : Shape).Idx → α)
    (h : (⟨3, ![1, 1, c]⟩ : Shape).ShapeCasts ⟨1, ![c]⟩) (k : Fin c) :
    shapeCast ⟨1, ![c]⟩ x h (ix1 k) = x (ix3 (0 : Fin 1) (0 : Fin 1) k) :=
  shapeCast_apply x h _ _ (by
    rw [Shape.rowMajor_val_three, Shape.rowMajor_val_one]
    show (0 * 1 + 0) * c + k.val = k.val
    simp only [Nat.zero_mul, Nat.zero_add])

/-- An [a, c] array cast to [a, 1, c] reads, at (n, u, k), the operand at (n, k), whatever the unit
    coordinate u. -/
theorem shapeCast_ac_a1c_apply {a c : ℕ} (x : (⟨2, ![a, c]⟩ : Shape).Idx → α)
    (h : (⟨2, ![a, c]⟩ : Shape).ShapeCasts ⟨3, ![a, 1, c]⟩) (n : Fin a) (u : Fin 1) (k : Fin c) :
    shapeCast ⟨3, ![a, 1, c]⟩ x h (ix3 n u k) = x (ix2 n k) :=
  shapeCast_apply x h _ _ (by
    have hu : u.val = 0 := by omega
    rw [Shape.rowMajor_val_three, Shape.rowMajor_val_two]
    show n.val * c + k.val = (n.val * 1 + u.val) * c + k.val
    rw [hu, Nat.mul_one, Nat.add_zero])

end Cert.Modulated.Layout
-- ==== Proof.Payload.lean ====
/-
  What the kernel's body stores, entry by entry, at the ideal values.

  The body loads the sample's modulation row s (a [1,1,512] piece of the [8,1,512] table), its
  demodulation row d, the bias row b, the transposed weight Wt (512 × 512, Wt[k,o]) and the block of
  2048 rows of x, and stores, at row r and channel o,

      act ( (∑ k, (x[r,k] · s[k]) · Wt[k,o]) · d[o] + b[o] ).

  The narrowing of the product x·s before the matrix unit is the identity on extended reals; the
  matrix product into a zero accumulator is the plain sum over the shared axis; the rows s, d, b are
  spread over the 2048 rows, so at (r, o) each reads its entry at k or o.
-/
import proofs.«134876_j56453050139463_2_alg».proof.Proof.Gen.KernelIdeal.Skeleton
import proofs.«134876_j56453050139463_2_alg».proof.Proof.Spec
import proofs.«134876_j56453050139463_2_alg».proof.Proof.Layout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Idealize.ShloMosaic Idealize.ShloMosaic.ValueIdx Cert.Modulated Cert.Modulated.Layout

/-! ## The matrix product at an entry -/

theorem lhs_0 (i : S2048x512.Idx) (q : dot_S2048x512_S512x512_S2048x512_1_0_0_1_n_n.contr.Idx) : (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_1 (i : S2048x512.Idx) (q : dot_S2048x512_S512x512_S2048x512_1_0_0_1_n_n.contr.Idx) : (dot_S2048x512_S512x512_S2048x512_1_0_0_1_n_n.lhsIdx i q 1).val = (q ⟨0, by decide⟩).val :=
  dot_S2048x512_S512x512_S2048x512_1_0_0_1_n_n.lhsIdx_val_of_single rfl i q
theorem rhs_0 (i : S2048x512.Idx) (q : dot_S2048x512_S512x512_S2048x512_1_0_0_1_n_n.contr.Idx) : (dot_S2048x512_S512x512_S2048x512_1_0_0_1_n_n.rhsIdx i q 0).val = (q ⟨0, by decide⟩).val :=
  dot_S2048x512_S512x512_S2048x512_1_0_0_1_n_n.rhsIdx_val_of_single rfl i q
theorem rhs_1 (i : S2048x512.Idx) (q : dot_S2048x512_S512x512_S2048x512_1_0_0_1_n_n.contr.Idx) : (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Rows times columns into a zero accumulator: entry (r, o) is the sum over k of A[r,k] · B[k,o]. -/
theorem mxu_apply (A : FVec Ideal S2048x512 .bf16) (B : FVec Ideal S512x512 .bf16) (r : Fin 2048) (o : Fin 512) :
    matmul dot_S2048x512_S512x512_S2048x512_1_0_0_1_n_n none A B (constant S2048x512 .f32 0x00000000#32) (ix2 r o)
      = ∑ k : Fin 512, A (ix2 r k) * B (ix2 k o) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r o) ((contrEquiv1 dot_S2048x512_S512x512_S2048x512_1_0_0_1_n_n 512 rfl rfl).symm k) = ix2 r k := funext fun a => Fin.ext (by
    match a with
    | ⟨0, _⟩ => exact lhs_0 _ _
    | ⟨1, _⟩ => exact (lhs_1 _ _).trans hk)
  have er : dot_S2048x512_S512x512_S2048x512_1_0_0_1_n_n.rhsIdx (ix2 r o) ((contrEquiv1 dot_S2048x512_S512x512_S2048x512_1_0_0_1_n_n 512 rfl rfl).symm k) = ix2 k o := funext fun a => Fin.ext (by
    match a with
    | ⟨0, _⟩ => exact (rhs_0 _ _).trans hk
    | ⟨1, _⟩ => exact rhs_1 _ _)
  rw [el, er]

/-! ## The stored block -/

/-- The value before the activation, over the whole block, in the body's own operations: the rows of x
    scaled by s and narrowed, times Wt, scaled by d, plus b. -/
def lin (v1 v4 : FVec Ideal S1x1x512 .f32) (v6 : FVec Ideal S1x512 .f32) (v8 : FVec Ideal S512x512 .bf16)
    (v10 : FVec Ideal S1x2048x512 .f32) : FVec Ideal S2048x512 .f32 :=
  addf (mulf
      (matmul dot_S2048x512_S512x512_S2048x512_1_0_0_1_n_n none
        (truncf .bf16 (mulf (shapeCast S2048x512 v10 Gen.shapeCasts_S1x2048x512_S2048x512)
          (broadcastTo S2048x512 (shapeCast S1x512 (shapeCast S512 v1 Gen.shapeCasts_S1x1x512_S512) Gen.shapeCasts_S512_S1x512)
            Gen.broadcasts_S1x512_S2048x512)) Gen.bitsLt_bf16_f32)
        (shapeCast S512x512 v8 Gen.shapeCasts_S512x512_S512x512)
        (constant S2048x512 .f32 0x00000000#32))
      (broadcastTo S2048x512 (shapeCast S1x512 (shapeCast S512 v4 Gen.shapeCasts_S1x1x512_S512) Gen.shapeCasts_S512_S1x512)
        Gen.broadcasts_S1x512_S2048x512))
    (broadcastTo S2048x512 (shapeCast S1x512 (shapeCast S512 v6 Gen.shapeCasts_S1x512_S512) Gen.shapeCasts_S512_S1x512)
      Gen.broadcasts_S1x512_S2048x512)

/-- The stored block is the activation of that value, entry by entry, given back its leading unit axis. -/
theorem pay_eq (v1 v4 : FVec Ideal S1x1x512 .f32) (v6 : FVec Ideal S1x512 .f32) (v8 : FVec Ideal S512x512 .bf16)
    (v10 : FVec Ideal S1x2048x512 .f32) :
    Gen.k0_pay1 (F := Ideal) v1 v4 v6 v8 v10
      = shapeCast S1x2048x512 (fun j => act (lin v1 v4 v6 v8 v10 j)) Gen.shapeCasts_S2048x512_S1x2048x512 := rfl

/-- The value before the activation at (r, o). -/
theorem lin_apply (v1 v4 : FVec Ideal S1x1x512 .f32) (v6 : FVec Ideal S1x512 .f32) (v8 : FVec Ideal S512x512 .bf16)
    (v10 : FVec Ideal S1x2048x512 .f32) (r : Fin 2048) (o : Fin 512) :
    lin v1 v4 v6 v8 v10 (ix2 r o)
      = (∑ k : Fin 512, v10 (ix3 (0 : Fin 1) r k) * v1 (ix3 (0 : Fin 1) (0 : Fin 1) k) * v8 (ix2 k o))
          * v4 (ix3 (0 : Fin 1) (0 : Fin 1) o) + v6 (ix2 (0 : Fin 1) o) := by
  unfold lin
  rw [addf_apply, mulf_apply, mxu_apply,
    broadcastTo_1b_ab_apply, shapeCast_a_1a_apply, shapeCast_11c_c_apply,
    broadcastTo_1b_ab_apply, shapeCast_a_1a_apply, shapeCast_1a_a_apply]
  refine congrArg (· * v4 (ix3 (0 : Fin 1) (0 : Fin 1) o) + v6 (ix2 (0 : Fin 1) o)) (Finset.sum_congr rfl fun k _ => ?_)
  rw [truncf_apply, mulf_apply, shapeCast_1ab_ab_apply, broadcastTo_1b_ab_apply, shapeCast_a_1a_apply,
    shapeCast_11c_c_apply, shapeCast_self]

/-- The stored block at (u, r, o), u the unit coordinate. -/
theorem pay_apply (v1 v4 : FVec Ideal S1x1x512 .f32) (v6 : FVec Ideal S1x512 .f32) (v8 : FVec Ideal S512x512 .bf16)
    (v10 : FVec Ideal S1x2048x512 .f32) (u : Fin 1) (r : Fin 2048) (o : Fin 512) :
    Gen.k0_pay1 (F := Ideal) v1 v4 v6 v8 v10 (ix3 u r o)
      = act ((∑ k : Fin 512, v10 (ix3 (0 : Fin 1) r k) * v1 (ix3 (0 : Fin 1) (0 : Fin 1) k) * v8 (ix2 k o))
          * v4 (ix3 (0 : Fin 1) (0 : Fin 1) o) + v6 (ix2 (0 : Fin 1) o)) := by
  rw [pay_eq, shapeCast_ab_1ab_apply, lin_apply]

end Cert.KernelIdeal.Body

end
-- ==== Proof.Piece.lean ====
/-
  What one run of the body leaves in the output block: the stored value of Payload.lean, computed from
  the five blocks the body loads. The block of x, the weight and the bias row are loaded whole; of each
  of the two [8,1,512] tables the body loads the one row the first grid coordinate names.

  The body makes one store, through the whole output block, so what the block holds afterwards is that
  store's value; each whole-block load reads its buffer's contents.
-/
import proofs.«134876_j56453050139463_2_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The row of an [8,1,512] table the body loads at grid coordinates i. -/
abbrev row (i : grid0.Coords) (x : Vec F S8x1x512 .f32) : Vec F S1x1x512 .f32 :=
  View.ld x (Rect.unit (s := S8x1x512) (k0_off1 i) S1x1x512.size (k0_off1_inb i))

/-- After the body, the output block holds the stored value of the sample's two table rows, the bias
    row, the weight and the block of x. -/
theorem out_eq (c : Dev nD) (i : grid0.Coords) (arg2 : Memref sig .tc .vmem S1x2048x512 .f32) (harg2 : arg2.IsWhole) (arg3 : Memref sig .tc .vmem S8x1x512 .f32) (harg3 : arg3.IsWhole) (arg4 : Memref sig .tc .vmem S8x1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x2048x512 .f32) (harg7 : arg7.IsWhole)
    (x0 : Vec F S1x2048x512 .f32) (x1 : Vec F S8x1x512 .f32) (x2 : Vec F S8x1x512 .f32) (x3 : Vec F S512x512 .bf16) (x4 : Vec F S1x512 .f32) :
    out0_A_5 c i arg2 harg2 arg3 harg3 arg4 harg4 arg5 harg5 arg6 harg6 arg7 harg7 x0 x1 x2 x3 x4 = k0_pay1 (row i x1) (row i x2) x4 x3 x0 := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  rw [View.canon_unit_zero zeros3]
  simp only [View.readAt_eq_ld, harg2.read_unread, harg3.read_unread, harg4.read_unread, harg5.read_unread, harg6.read_unread,
    View.ld_unit_zero (S := S1x2048x512) zeros3, View.ld_unit_zero (S := S1x512) zeros2, View.ld_unit_zero (S := S512x512) zeros2]

end Cert.KernelIdeal.Body

end
-- ==== Proof.Blocks.lean ====
/-
  From blocks to the array: what the kernel's result array holds after the run.

  The grid has 8 × 8 points; point (n, j) works on sample n and rows 2048 j … 2048 j + 2047. Its block of
  x is those rows of sample n; the two tables, the weight and the bias are staged whole, and the body
  picks row n of each table. The tables were written by the host operations before the call: the
  modulation table s, the demodulation table d (each given a unit middle axis), the transposed and
  narrowed weight, and the bias as one row. Read entry by entry, point (n, j) writes back block (n, j) of
  the specification `G` of x, s, d, the weight and the bias; the 64 blocks tile the array, so the array
  is `G`.
-/
import proofs.«134876_j56453050139463_2_alg».proof.Proof.Gen.KernelIdeal.Value
import proofs.«134876_j56453050139463_2_alg».proof.Proof.Payload
import proofs.«134876_j56453050139463_2_alg».proof.Proof.Piece
import Idealize.ShloMosaic.Lib.StableHlo.Run

noncomputable section

namespace Cert.KernelIdeal.RunValue

open Cert.KernelIdeal Cert.KernelIdeal.Gen Cert.KernelIdeal.Body Idealize.ShloMosaic Idealize.ShloMosaic.TcCoe Idealize.SL.Sem
open Idealize.ShloMosaic.ValueIdx Cert.Modulated Cert.Modulated.Layout
open Idealize.ShloMosaic.Pipeline (Dat)

variable (m : (ℓ : Loc nD τ sig) → Buf (Elt Ideal) ℓ) (ρ : Dev nD → PrngReg)

/-! ## The two tables, as the host operations before the call compute them -/

/-- The modulation table: w contracted with the style weight, scaled, plus the style bias spread over the samples. -/
def sty (a1 : FVec Ideal S8x512 .f32) (a3 : FVec Ideal S512x512 .f32) (a4 : FVec Ideal S512 .f32) : FVec Ideal S8x512 .f32 :=
  addf (mulf (Host.dotGeneral (F := Ideal) dot_S8x512_S512x512_S8x512_1_1_0_0_n_n none a1 a3)
      (broadcastInDim S8x512 ![] Gen.bcast_S_S8x512 (constant (F := Ideal) S_ .f32 0x3D3504F3#32)))
    (broadcastInDim S8x512 ![0, 1] Gen.bcast_S1x512_S8x512_0_1 (broadcastInDim S1x512 ![1] Gen.bcast_S512_S1x512_1 a4))

/-- The demodulation table: the reciprocal square root of the squared table contracted with the squared weight, plus ε. -/
def dec (a1 : FVec Ideal S8x512 .f32) (a2 a3 : FVec Ideal S512x512 .f32) (a4 : FVec Ideal S512 .f32) : FVec Ideal S8x512 .f32 :=
  Host.rsqrt (F := Ideal) (addf (Host.dotGeneral (F := Ideal) dot_S8x512_S512x512_S8x512_1_1_0_0_n_n none (mulf (sty a1 a3 a4) (sty a1 a3 a4)) (mulf a2 a2))
    (broadcastInDim S8x512 ![] Gen.bcast_S_S8x512 (constant (F := Ideal) S_ .f32 0x322BCC77#32)))

/-- The kernel's result array as one function of the argument arrays. -/
abbrev result (c : Dev nD) : Buf (Elt Ideal) ((c : Thread nD τ).loc main_v17) :=
  G (m ((c : Thread nD τ).loc main_arg0)) (sty (m ((c : Thread nD τ).loc main_arg1)) (m ((c : Thread nD τ).loc main_arg3)) (m ((c : Thread nD τ).loc main_arg4)))
    (dec (m ((c : Thread nD τ).loc main_arg1)) (m ((c : Thread nD τ).loc main_arg2)) (m ((c : Thread nD τ).loc main_arg3)) (m ((c : Thread nD τ).loc main_arg4))) (m ((c : Thread nD τ).loc main_arg2)) (m ((c : Thread nD τ).loc main_arg5))

/-! ## The arrays the call finds, written by the host operations -/

theorem V_tab_s (c : Dev nD) : (V m c main_v14 : S8x1x512.Idx → EReal)
    = shapeCast S8x1x512 (sty (m ((c : Thread nD τ).loc main_arg1)) (m ((c : Thread nD τ).loc main_arg3)) (m ((c : Thread nD τ).loc main_arg4))) Gen.shapeCasts_S8x512_S8x1x512 := by
  dsimp only [Gen.V, Gen.hostOps0]; after_results; rfl

theorem V_tab_d (c : Dev nD) : (V m c main_v15 : S8x1x512.Idx → EReal)
    = shapeCast S8x1x512 (dec (m ((c : Thread nD τ).loc main_arg1)) (m ((c : Thread nD τ).loc main_arg2)) (m ((c : Thread nD τ).loc main_arg3)) (m ((c : Thread nD τ).loc main_arg4))) Gen.shapeCasts_S8x512_S8x1x512 := by
  dsimp only [Gen.V, Gen.hostOps0]; after_results; rfl

theorem V_wt (c : Dev nD) : (V m c main_v13 : S512x512.Idx → EReal)
    = truncf (F := Ideal) .bf16 (transpose S512x512 [1, 0] (m ((c : Thread nD τ).loc main_arg2)) Gen.transposes_S512x512_S512x512_1_0) Gen.bitsLt_bf16_f32 := by
  dsimp only [Gen.V, Gen.hostOps0]; after_results

theorem V_bias (c : Dev nD) : (V m c main_v16 : S1x512.Idx → EReal)
    = shapeCast S1x512 (m ((c : Thread nD τ).loc main_arg5)) Gen.shapeCasts_S512_S1x512 := by
  dsimp only [Gen.V, Gen.hostOps0]; after_results; rfl

/-! ## The printed index maps, decided over the 64 points -/

theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_5.index t (0 : Fin 3) < 8 ∧ win0_5.index t (1 : Fin 3) < 8
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ k0_off1 (grid0.coords t) (0 : Fin 3) = win0_5.index t (0 : Fin 3)
    ∧ k0_off1 (grid0.coords t) (1 : Fin 3) = 0 ∧ k0_off1 (grid0.coords t) (2 : Fin 3) = 0 :=
  (by decide +kernel : ∀ t : Fin grid0.N, _)

/-- Every (sample, row block) is some point's. -/
theorem idx_onto : ∀ (q0 : Fin 8) (q1 : Fin 8), ∃ t : Fin cfg0.N, win0_5.index t = ![q0.val, q1.val, 0] :=
  (by decide +kernel : ∀ (q0 : Fin 8) (q1 : Fin 8), ∃ t : Fin grid0.N, win0_5.index t = ![q0.val, q1.val, 0])

/-! ## One entry of one point's stored block -/

/-- Over any five loaded blocks that read the arrays x, s, d, W, b where point (n, ·) should — the block of x at
    rows l = (block offset) + r of sample n, the tables at their unit middle axis, the weight transposed, the bias as
    one row —, the stored block at (·, r, o) is `G` at (n, l, o). -/
theorem point_eq (i : grid0.Coords) (n : Fin 8) (hi0 : k0_off1 i (0 : Fin 3) = n.val) (hi1 : k0_off1 i (1 : Fin 3) = 0)
    (hi2 : k0_off1 i (2 : Fin 3) = 0)
    (X : FVec Ideal S1x2048x512 .f32) (T1 T2 : FVec Ideal S8x1x512 .f32) (Wt : FVec Ideal S512x512 .bf16) (B : FVec Ideal S1x512 .f32)
    (x : S8x16384x512.Idx → EReal) (s d : S8x512.Idx → EReal) (W : S512x512.Idx → EReal) (b : S512.Idx → EReal)
    (l : Fin 16384) (u : Fin 1) (r : Fin 2048) (o : Fin 512)
    (hX : ∀ k : Fin 512, X (ix3 (0 : Fin 1) r k) = x (ix3 n l k))
    (hT1 : ∀ k : Fin 512, T1 (ix3 n (0 : Fin 1) k) = s (ix2 n k))
    (hT2 : T2 (ix3 n (0 : Fin 1) o) = d (ix2 n o))
    (hWt : ∀ k : Fin 512, Wt (ix2 k o) = W (ix2 o k))
    (hB : B (ix2 (0 : Fin 1) o) = b (ix1 o)) :
    k0_pay1 (F := Ideal) (row i T1) (row i T2) B Wt X (ix3 u r o) = G x s d W b (ix3 n l o) := by
  have hrow : ∀ (T : FVec Ideal S8x1x512 .f32) (k : Fin 512),
      row (F := Ideal) i T (ix3 (0 : Fin 1) (0 : Fin 1) k) = T (ix3 n (0 : Fin 1) k) := fun T k => by
    show T ((Rect.unit (s := S8x1x512) (k0_off1 i) S1x1x512.size (k0_off1_inb i)).idx (ix3 (0 : Fin 1) (0 : Fin 1) k)) = _
    refine congrArg T (funext fun a => Fin.ext ?_)
    match a with
    | ⟨0, _⟩ => show k0_off1 i (0 : Fin 3) + 1 * 0 = n.val; omega
    | ⟨1, _⟩ => show k0_off1 i (1 : Fin 3) + 1 * 0 = 0; omega
    | ⟨2, _⟩ => show k0_off1 i (2 : Fin 3) + 1 * k.val = k.val; omega
  rw [pay_apply, G_apply, hrow, hT2, hB]
  unfold pre
  refine congrArg (fun z => act (z * d (ix2 n o) + b (ix1 o))) (Finset.sum_congr rfl fun k _ => ?_)
  rw [hX, hrow, hT1, hWt]

/-! ## What point t writes back -/

theorem flushed_eq (c : Dev nD) (t : Fin cfg0.N) :
    (dats m 0 c).flushed 5 t = ((cfg0.win 5).blk t).view.read (Elt Ideal) (result m c) := by
  refine (Value.flushed5_A m c t).trans ?_
  refine (congrArg ((cfg0.win 5).cut (grid0.coords t)) (out_eq c (grid0.coords t) (ms0_0 t) (hs0_0 t) (ms0_1 t) (hs0_1 t) (ms0_2 t) (hs0_2 t)
    (ms0_3 t) (hs0_3 t) (ms0_4 t) (hs0_4 t) (ms0_5 t) (hs0_5 t) (iblk m c 0 t) (iblk m c 1 t) (iblk m c 2 t) (iblk m c 3 t) (iblk m c 4 t))).trans ?_
  obtain ⟨e0, e1, e2, e3, e4, e5, f0, f1, f2, g0, g1, g2, w0, w1, b0, b1, k0, k1, k2⟩ := idx_facts t
  funext j
  obtain ⟨u, r, o, rfl⟩ : ∃ (u : Fin 1) (r : Fin 2048) (o : Fin 512), j = ix3 u r o := ⟨j 0, j 1, j 2, eq_ix3 j⟩
  have hu : u.val = 0 := by omega
  have hr : r.val < 2048 := r.isLt
  -- the sample and the row this entry is
  let n : Fin 8 := ⟨win0_5.index t (0 : Fin 3), e4⟩
  let l : Fin 16384 := ⟨win0_5.index t (1 : Fin 3) * 2048 + r.val, by omega⟩
  have hemb : ((cfg0.win 5).blk t).view.emb (ix3 u r o) = ix3 n l o := funext fun a => Fin.ext (by
    match a with
    | ⟨0, _⟩ => show win0_5.index t (0 : Fin 3) * 1 + 1 * u.val = win0_5.index t (0 : Fin 3); omega
    | ⟨1, _⟩ => show win0_5.index t (1 : Fin 3) * 2048 + 1 * r.val = win0_5.index t (1 : Fin 3) * 2048 + r.val; omega
    | ⟨2, _⟩ => show win0_5.index t (2 : Fin 3) * 512 + 1 * o.val = o.val; omega)
  show k0_pay1 (F := Ideal) (row (grid0.coords t) (iblk m c 1 t)) (row (grid0.coords t) (iblk m c 2 t)) (iblk m c 4 t) (iblk m c 3 t) (iblk m c 0 t) (ix3 u r o)
    = result m c (((cfg0.win 5).blk t).view.emb (ix3 u r o))
  rw [hemb]
  refine point_eq (grid0.coords t) n k0 k1 k2 (iblk m c 0 t) (iblk m c 1 t) (iblk m c 2 t) (iblk m c 3 t) (iblk m c 4 t)
    (m ((c : Thread nD τ).loc main_arg0)) (sty (m ((c : Thread nD τ).loc main_arg1)) (m ((c : Thread nD τ).loc main_arg3)) (m ((c : Thread nD τ).loc main_arg4)))
    (dec (m ((c : Thread nD τ).loc main_arg1)) (m ((c : Thread nD τ).loc main_arg2)) (m ((c : Thread nD τ).loc main_arg3)) (m ((c : Thread nD τ).loc main_arg4))) (m ((c : Thread nD τ).loc main_arg2)) (m ((c : Thread nD τ).loc main_arg5))
    l u r o ?_ ?_ ?_ ?_ ?_
  · -- the block of x: rows 2048 j + r of sample n
    intro k
    show V m c main_arg0 (((cfg0.win 0).blk t).view.emb (ix3 (0 : Fin 1) r k)) = _
    rw [V_main_arg0]
    refine congrArg _ (funext fun a => Fin.ext ?_)
    match a with
    | ⟨0, _⟩ => show win0_0.index t (0 : Fin 3) * 1 + 1 * 0 = win0_5.index t (0 : Fin 3); omega
    | ⟨1, _⟩ => show win0_0.index t (1 : Fin 3) * 2048 + 1 * r.val = win0_5.index t (1 : Fin 3) * 2048 + r.val; omega
    | ⟨2, _⟩ => show win0_0.index t (2 : Fin 3) * 512 + 1 * k.val = k.val; omega
  · -- the modulation table, staged whole
    intro k
    show V m c main_v14 (((cfg0.win 1).blk t).view.emb (ix3 n (0 : Fin 1) k)) = _
    have he : ((cfg0.win 1).blk t).view.emb (ix3 n (0 : Fin 1) k) = ix3 n (0 : Fin 1) k := funext fun a => Fin.ext (by
      match a with
      | ⟨0, _⟩ => show win0_1.index t (0 : Fin 3) * 8 + 1 * n.val = n.val; omega
      | ⟨1, _⟩ => show win0_1.index t (1 : Fin 3) * 1 + 1 * 0 = 0; omega
      | ⟨2, _⟩ => show win0_1.index t (2 : Fin 3) * 512 + 1 * k.val = k.val; omega)
    rw [he]
    exact (congrFun (V_tab_s m c) _).trans (shapeCast_ac_a1c_apply _ _ n (0 : Fin 1) k)
  · -- the demodulation table, staged whole
    show V m c main_v15 (((cfg0.win 2).blk t).view.emb (ix3 n (0 : Fin 1) o)) = _
    have he : ((cfg0.win 2).blk t).view.emb (ix3 n (0 : Fin 1) o) = ix3 n (0 : Fin 1) o := funext fun a => Fin.ext (by
      match a with
      | ⟨0, _⟩ => show win0_2.index t (0 : Fin 3) * 8 + 1 * n.val = n.val; omega
      | ⟨1, _⟩ => show win0_2.index t (1 : Fin 3) * 1 + 1 * 0 = 0; omega
      | ⟨2, _⟩ => show win0_2.index t (2 : Fin 3) * 512 + 1 * o.val = o.val; omega)
    rw [he]
    exact (congrFun (V_tab_d m c) _).trans (shapeCast_ac_a1c_apply _ _ n (0 : Fin 1) o)
  · -- the weight, transposed by the host and narrowed
    intro k
    show V m c main_v13 (((cfg0.win 3).blk t).view.emb (ix2 k o)) = _
    have he : ((cfg0.win 3).blk t).view.emb (ix2 k o) = ix2 k o := funext fun a => Fin.ext (by
      match a with
      | ⟨0, _⟩ => show win0_3.index t (0 : Fin 2) * 512 + 1 * k.val = k.val; omega
      | ⟨1, _⟩ => show win0_3.index t (1 : Fin 2) * 512 + 1 * o.val = o.val; omega)
    rw [he]
    refine (congrFun (V_wt m c) _).trans ?_
    rw [truncf_apply]
    exact transpose_ix2_apply _ _ k o
  · -- the bias as one row
    show V m c main_v16 (((cfg0.win 4).blk t).view.emb (ix2 (0 : Fin 1) o)) = _
    have he : ((cfg0.win 4).blk t).view.emb (ix2 (0 : Fin 1) o) = ix2 (0 : Fin 1) o := funext fun a => Fin.ext (by
      match a with
      | ⟨0, _⟩ => show win0_4.index t (0 : Fin 2) * 1 + 1 * 0 = 0; omega
      | ⟨1, _⟩ => show win0_4.index t (1 : Fin 2) * 512 + 1 * o.val = o.val; omega)
    rw [he]
    exact (congrFun (V_bias m c) _).trans (shapeCast_a_1a_apply _ _ (0 : Fin 1) o)

/-! ## The blocks tile the array -/

theorem mem_blk (t : Fin cfg0.N) (i : S8x16384x512.Idx) :
    i ∈ ((cfg0.win 5).blk t).view.set ↔ ∀ a : Fin 3, win0_5.index t a * S1x2048x512.size a ≤ (i a).val
      ∧ (i a).val < win0_5.index t a * S1x2048x512.size a + S1x2048x512.size a := by
  show i ∈ ((View.whole main_v17).slice (win0_5.rect t)).set ↔ _
  rw [View.set_slice_whole, Rect.mem_set_unit]
  exact Iff.rfl

/-- Entry (n, l, ·) is in the block of the point (n, l / 2048). -/
theorem cover (i : S8x16384x512.Idx) : ∃ t : Fin cfg0.N, (cfg0.win 5).flush t = true ∧ i ∈ ((cfg0.win 5).blk t).view.set := by
  have hi0 : (i 0).val < 8 := (i 0).isLt
  have hi1 : (i 1).val < 16384 := (i 1).isLt
  have hi2 : (i 2).val < 512 := (i 2).isLt
  obtain ⟨t, ht⟩ := idx_onto ⟨(i 0).val, hi0⟩ ⟨(i 1).val / 2048, by omega⟩
  have q0 : win0_5.index t (0 : Fin 3) = (i 0).val := congrFun ht 0
  have q1 : win0_5.index t (1 : Fin 3) = (i 1).val / 2048 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 512 ≤ (i 2).val ∧ (i 2).val < win0_5.index t (2 : Fin 3) * 512 + 512; omega

/-- The result array after the run is `G` of the arguments. -/
theorem final (c : Dev nD) : (dats m 0 c).arrAt 5 cfg0.N = result m c :=
  (dats m 0 c).arrAt_eq_of_cover 5 (result m c) (fun t _ => flushed_eq m c t) cover

/-! ## The run, read -/

theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.RunValue

end
-- ==== Proof.RefIsG.lean ====
/-
  The reference, entry by entry, is the specification `G` of the two tables its own first operations
  compute: the modulation table s (its stage %5) and the demodulation table d (its stage %11).

  The reference broadcasts each table along the row axis, multiplies x by the broadcast s, contracts the
  last axis with the weight's second axis, multiplies by the broadcast d, adds the broadcast bias and
  applies the activation. Read at (n, l, o), a broadcast along l reads the table at (n, ·) and the
  contraction is the sum over k of (x[n,l,k] · s[n,k]) · W[o,k]: exactly `pre`, then `act`.
-/
import proofs.«134876_j56453050139463_2_alg».proof.Proof.Gen.ReferenceIdeal.Read
import proofs.«134876_j56453050139463_2_alg».proof.Proof.Spec

noncomputable section

namespace Cert.ReferenceIdeal.RefValue

open Cert.ReferenceIdeal Cert.ReferenceIdeal.Read Idealize.ShloMosaic Idealize.ShloMosaic.ValueIdx Cert.Modulated

/-- The reference's last stage is `G` of x, its own two tables, the weight and the bias. -/
theorem result_eq (x0 : (⟨S8x16384x512, .f32⟩ : BufTy).Contents (Elt Ideal)) (x1 : (⟨S8x512, .f32⟩ : BufTy).Contents (Elt Ideal))
    (x2 x3 : (⟨S512x512, .f32⟩ : BufTy).Contents (Elt Ideal)) (x4 x5 : (⟨S512, .f32⟩ : BufTy).Contents (Elt Ideal)) :
    val_main_v29 (F := Ideal) x0 x1 x2 x3 x4 x5
      = G x0 (val_main_v5 (F := Ideal) x1 x3 x4) (val_main_v11 (F := Ideal) x1 x2 x3 x4) x2 x5 := by
  funext i
  obtain ⟨n, l, o, rfl⟩ : ∃ (n : Fin 8) (l : Fin 16384) (o : Fin 512), i = ix3 n l o := ⟨i 0, i 1, i 2, eq_ix3 i⟩
  rw [G_apply]
  -- the operands' indices under the broadcasts and the contraction, by coordinates
  have e1 : ∀ k : Fin 512, lidx_main_v15 (ix3 n l o) k = ix3 n l k := fun k =>
    funext fun a => Fin.ext (by match a with | ⟨0, _⟩ => rfl | ⟨1, _⟩ => rfl | ⟨2, _⟩ => rfl)
  have e2 : ∀ k : Fin 512, ridx_main_v15 (ix3 n l o) k = ix2 o k := fun k =>
    funext fun a => Fin.ext (by match a with | ⟨0, _⟩ => rfl | ⟨1, _⟩ => rfl)
  have e3 : ∀ k : Fin 512, idx_main_v12 (idx_main_v13 (ix3 n l k)) = ix2 n k := fun k =>
    funext fun a => Fin.ext (by match a with | ⟨0, _⟩ => rfl | ⟨1, _⟩ => rfl)
  have e4 : idx_main_v16 (idx_main_v17 (ix3 n l o)) = ix2 n o :=
    funext fun a => Fin.ext (by match a with | ⟨0, _⟩ => rfl | ⟨1, _⟩ => rfl)
  have e5 : idx_main_v19 (idx_main_v20 (ix3 n l o)) = ix1 o :=
    funext fun a => Fin.ext (by match a with | ⟨0, _⟩ => rfl)
  simp only [val_main_v29_apply, val_main_call1_v4_apply, val_main_call1_v3_apply, val_main_cst_5_apply,
    val_main_call1_v2_apply, val_main_call1_v1_apply, val_main_call1_v0_apply, val_main_cst_4_apply,
    val_main_v28_apply, val_main_v27_apply, val_main_cst_3_apply, val_main_v26_apply, val_main_v25_apply,
    val_main_v24_apply, val_main_cst_2_apply, val_main_v23_apply, val_main_v22_apply, val_main_cst_1_apply,
    val_main_v21_apply, val_main_v20_apply, val_main_v19_apply, val_main_v18_apply, val_main_v17_apply,
    val_main_v16_apply, val_main_v15_apply, val_main_v14_apply, val_main_v13_apply, val_main_v12_apply,
    e1, e2, e3, e4, e5]
  rfl

end Cert.ReferenceIdeal.RefValue

end
-- ==== Proof.lean ====
/-
  A style-modulated 1 × 1 convolution with weight demodulation, bias, leaky activation and clamp, in one
  kernel, against its plain reference.

  Both programs first compute, on the host and with the same operations, two 8 × 512 tables from w, the
  style weight, the style bias and the weight: the modulation s[n,c] and the demodulation d[n,o]. The
  reference then forms y[n,l,o] = (∑ c, (x[n,l,c] · s[n,c]) · W[o,c]) · d[n,o] + b[o] on whole arrays and
  applies the activation. The kernel walks an 8 × 8 grid of (sample, block of 2048 rows): it multiplies
  the block of x by the sample's row of s, narrows the product, multiplies by the transposed and narrowed
  weight on the matrix unit, scales by the sample's row of d, adds the bias and applies the same
  activation with the same literal words.

  On the extended reals a narrowing is the identity and a matrix product into a zero accumulator is the
  sum over the shared axis, so both sides are the one function `Cert.Modulated.G` of x, the two tables,
  the weight and the bias, entry by entry; the sum runs over the same index set with the same factors in
  the same order, so no law that would need a finite input is used, and the precondition is never opened.
  The kernel's idealization rewrote no operation, so the conjunct relating the two kernels is trivial; the
  three frames are the generated ones (the reference's frame is its generated run with the result dropped).
-/
import proofs.«134876_j56453050139463_2_alg».proof.Defs
import proofs.«134876_j56453050139463_2_alg».proof.Proof.Gen.Kernel
import proofs.«134876_j56453050139463_2_alg».proof.Proof.Gen.Kernel.Skeleton
import proofs.«134876_j56453050139463_2_alg».proof.Proof.Gen.Kernel.Launch
import proofs.«134876_j56453050139463_2_alg».proof.Proof.Gen.Kernel.Points
import proofs.«134876_j56453050139463_2_alg».proof.Proof.Gen.Kernel.Frame
import proofs.«134876_j56453050139463_2_alg».proof.Proof.Gen.KernelIdeal
import proofs.«134876_j56453050139463_2_alg».proof.Proof.Gen.KernelIdeal.Skeleton
import proofs.«134876_j56453050139463_2_alg».proof.Proof.Gen.KernelIdeal.Launch
import proofs.«134876_j56453050139463_2_alg».proof.Proof.Gen.KernelIdeal.Points
import proofs.«134876_j56453050139463_2_alg».proof.Proof.Gen.KernelIdeal.Frame
import proofs.«134876_j56453050139463_2_alg».proof.Proof.Gen.ReferenceIdeal
import proofs.«134876_j56453050139463_2_alg».proof.Proof.Gen.Pre_finite_inputs
import proofs.«134876_j56453050139463_2_alg».proof.Proof.Gen.KernelIdeal.Value
import proofs.«134876_j56453050139463_2_alg».proof.Proof.Gen.ReferenceIdeal.Run
import proofs.«134876_j56453050139463_2_alg».proof.Proof.Gen.ReferenceIdeal.Read
import proofs.«134876_j56453050139463_2_alg».proof.Proof.Blocks
import proofs.«134876_j56453050139463_2_alg».proof.Proof.RefIsG
import Idealize.ShloMosaic.Adequacy
import Idealize.ShloMosaic.Init

noncomputable section

namespace Cert.Proof

open Idealize.ShloMosaic Idealize.ShloMosaic.TcCoe Idealize.SL.Sem

/-- The reference's modulation table is the kernel's: the same host operations on the same arguments. -/
theorem tab_s_eq (a1 : FVec Ideal Cert.KernelIdeal.S8x512 .f32) (a3 : FVec Ideal Cert.KernelIdeal.S512x512 .f32)
    (a4 : FVec Ideal Cert.KernelIdeal.S512 .f32) :
    Cert.ReferenceIdeal.Read.val_main_v5 (F := Ideal) a1 a3 a4 = Cert.KernelIdeal.RunValue.sty a1 a3 a4 := rfl

/-- The reference's demodulation table is the kernel's. -/
theorem tab_d_eq (a1 : FVec Ideal Cert.KernelIdeal.S8x512 .f32) (a2 a3 : FVec Ideal Cert.KernelIdeal.S512x512 .f32)
    (a4 : FVec Ideal Cert.KernelIdeal.S512 .f32) :
    Cert.ReferenceIdeal.Read.val_main_v11 (F := Ideal) a1 a2 a3 a4 = Cert.KernelIdeal.RunValue.dec a1 a2 a3 a4 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result array ends at `G` of x, its two tables, the weight and the bias,
    and the reference's at `G` of the same arguments and its own two tables, which are the same tables. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq,
    (hagree c).1, (hagree c).2.1, (hagree c).2.2.1, (hagree c).2.2.2.1, (hagree c).2.2.2.2.1, (hagree c).2.2.2.2.2,
    tab_s_eq, tab_d_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
